-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8 : Shape := ⟨2, ![4096, 8]⟩
abbrev S4096x4096 : Shape := ⟨2, ![4096, 4096]⟩
abbrev S_ : Shape := ⟨0, ![]⟩

class Facts : Prop where
  bcast_S_S4096x8 : S_.BroadcastsInDim S4096x8 (![] : Fin 0 → Fin S4096x8.rank)
  reducesTo_S4096x8_S_d0_1 : S4096x8.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4096x8 .f32) (main_arg1 : FVec F S4096x8 .f32) (main_arg2 : FVec F S4096x4096 .f32) : IVec S_ 1 :=
  let main_v0 : FVec F S4096x8 .f32 := Host.absf main_arg0
  let main_cst : FVec F S_ .f32 := constant S_ .f32 0x7F800000#32
  let main_v1 : FVec F S4096x8 .f32 := broadcastInDim S4096x8 ![] bcast_S_S4096x8 main_cst
  let main_v2 : IVec S4096x8 1 := cmpf .olt main_v0 main_v1
  let main_c : IVec S_ 1 := constantI S_ 1 1#1
  let main_v3 : IVec S_ 1 := (fun x v => Host.reduce IntOp.andi x v reducesTo_S4096x8_S_d0_1 h_S_) main_v2 main_c
  let main_v4 : FVec F S4096x8 .f32 := Host.absf main_arg1
  let main_cst_0 : FVec F S_ .f32 := constant S_ .f32 0x7F800000#32
  let main_v5 : FVec F S4096x8 .f32 := broadcastInDim S4096x8 ![] bcast_S_S4096x8 main_cst_0
  let main_v6 : IVec S4096x8 1 := cmpf .olt main_v4 main_v5
  let main_c_1 : IVec S_ 1 := constantI S_ 1 1#1
  let main_v7 : IVec S_ 1 := (fun x v => Host.reduce IntOp.andi x v reducesTo_S4096x8_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S4096x8 : Shape := ⟨2, ![4096, 8]⟩
abbrev S4096x4096 : Shape := ⟨2, ![4096, 4096]⟩
abbrev S1024x8 : Shape := ⟨2, ![1024, 8]⟩
abbrev S512x8 : Shape := ⟨2, ![512, 8]⟩
abbrev S512x4096 : Shape := ⟨2, ![512, 4096]⟩
abbrev S1024x4096 : Shape := ⟨2, ![1024, 4096]⟩
abbrev S1024 : Shape := ⟨1, ![1024]⟩
abbrev S1024x1 : Shape := ⟨2, ![1024, 1]⟩
abbrev S512 : Shape := ⟨1, ![512]⟩
abbrev S1024x512 : Shape := ⟨2, ![1024, 512]⟩
abbrev S1x512 : Shape := ⟨2, ![1, 512]⟩

abbrev nBuf : Space → Nat
  | .hbm => 5
  | .vmem => 8
  | .smem => 0
  | _ => 0

abbrev bufTy : (tb : Table) → Fin (tcTables nBuf tb) → BufTy
  | .hbm, ⟨0, _⟩ => ⟨S4096x8, .f32⟩
  | .hbm, ⟨1, _⟩ => ⟨S4096x8, .f32⟩
  | .hbm, ⟨2, _⟩ => ⟨S4096x4096, .f32⟩
  | .hbm, ⟨3, _⟩ => ⟨S4096x4096, .bf16⟩
  | .hbm, ⟨4, _⟩ => ⟨S4096x4096, .f32⟩
  | .local _ .vmem, ⟨0, _⟩ => ⟨S1024x8, .f32⟩
  | .local _ .vmem, ⟨1, _⟩ => ⟨S1024x8, .f32⟩
  | .local _ .vmem, ⟨2, _⟩ => ⟨S512x8, .f32⟩
  | .local _ .vmem, ⟨3, _⟩ => ⟨S512x8, .f32⟩
  | .local _ .vmem, ⟨4, _⟩ => ⟨S512x4096, .bf16⟩
  | .local _ .vmem, ⟨5, _⟩ => ⟨S512x4096, .bf16⟩
  | .local _ .vmem, ⟨6, _⟩ => ⟨S1024x4096, .f32⟩
  | .local _ .vmem, ⟨7, _⟩ => ⟨S1024x4096, .f32⟩
  | _, _ => ⟨S4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v24 : BitVec 1 := Scalar.cmpi .eq arg1 c0_i32
  let v25 : BitVec 32 := Scalar.extui v24
  let c0_i32_11 : BitVec 32 := 0#32
  let v26 : BitVec 1 := Scalar.cmpi .ne v25 c0_i32_11
  v26

def k0_cond2 (i : grid0.Coords) : BitVec 1 :=
  let arg1 : BitVec 32 := BitVec.ofNat 32 (i 1).val
  let c0_i32_12 : BitVec 32 := 0#32
  let v27 : BitVec 1 := Scalar.cmpi .ne arg1 c0_i32_12
  let v28 : BitVec 32 := Scalar.extui v27
  let c0_i32_13 : BitVec 32 := 0#32
  let v29 : BitVec 1 := Scalar.cmpi .ne v28 c0_i32_13
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bitsLt_bf16_f32 : FTy.bits .bf16 < FTy.bits .f32
  inb_S1024x8_S1024x8_0_0 : ∀ a, (![0, 0] : Fin 2 → Nat) a + S1024x8.size a ≤ S1024x8.size a
  h_S1024x8 : 0 < S1024x8.numel
  inb_S512x8_S512x8_0_0 : ∀ a, (![0, 0] : Fin 2 → Nat) a + S512x8.size a ≤ S512x8.size a
  h_S512x8 : 0 < S512x8.numel
  reduces_S1024x8_S1024 : S1024x8.Reduces [1] S1024
  shapeCasts_S1024_S1024x1 : S1024.ShapeCasts S1024x1
  reduces_S512x8_S512 : S512x8.Reduces [1] S512
  broadcasts_S1024x1_S1024x512 : S1024x1.Broadcasts S1024x512
  shapeCasts_S512_S1x512 : S512.ShapeCasts S1x512
  broadcasts_S1x512_S1024x512 : S1x512.Broadcasts S1024x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  dot_S1024x8_S512x8_S1024x512_1_1_0_0_n_n_wf : DotDims.WF S1024x8 S512x8 S1024x512 [1] [1] [0] [0] [] []
  dot_S1024x512_S512x4096_S1024x4096_1_0_0_1_n_n_wf : DotDims.WF S1024x512 S512x4096 S1024x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8.size a ≤ S4096x8.size a
  hwx0_0 : ∀ i : grid0.Coords, EltTy.bits .f32 = 32 ∨ (Rect.block (s := S4096x8) S1024x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x8.size a ≤ S4096x8.size a
  hwx0_1 : ∀ i : grid0.Coords, EltTy.bits .f32 = 32 ∨ (Rect.block (s := S4096x8) S512x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .bf16 = 32 ∨ (Rect.block (s := S4096x4096) S512x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S4096x4096.size a
  hwx0_3 : ∀ i : grid0.Coords, EltTy.bits .f32 = 32 ∨ (Rect.block (s := S4096x4096) S1024x4096.size (cc0_transform_3 i) (hinb0_3 i)).WholeWords (EltTy.packing .f32)

variable [Facts₀]

def dot_S1024x8_S512x8_S1024x512_1_1_0_0_n_n : DotDims S1024x8 S512x8 S1024x512 where
  lhsContracting := [1]
  rhsContracting := [1]
  lhsNonContracting := [0]
  rhsNonContracting := [0]
  lhsBatch := []
  rhsBatch := []
  wf := dot_S1024x8_S512x8_S1024x512_1_1_0_0_n_n_wf
def dot_S1024x512_S512x4096_S1024x4096_1_0_0_1_n_n : DotDims S1024x512 S512x4096 S1024x4096 where
  lhsContracting := [1]
  rhsContracting := [0]
  lhsNonContracting := [0]
  rhsNonContracting := [1]
  lhsBatch := []
  rhsBatch := []
  wf := dot_S1024x512_S512x4096_S1024x4096_1_0_0_1_n_n_wf

abbrev win0_0 : Pipeline.Window sig grid0 :=
  Pipeline.Window.ofSpec (Memref.whole main_arg0) S1024x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S4096x8 : Shape := ⟨2, ![4096, 8]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S8x4096 : Shape := ⟨2, ![8, 4096]⟩
abbrev S1x4096 : Shape := ⟨2, ![1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x8, .f32⟩
  | .hbm, ⟨1, _⟩ => ⟨S4096x8, .f32⟩
  | .hbm, ⟨2, _⟩ => ⟨S4096x4096, .f32⟩
  | .hbm, ⟨3, _⟩ => ⟨S4096x8, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S8x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x8, .f32⟩
  | .hbm, ⟨15, _⟩ => ⟨S_, .f32⟩
  | .hbm, ⟨16, _⟩ => ⟨S4096, .f32⟩
  | .hbm, ⟨17, _⟩ => ⟨S1x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | _, _ => ⟨S4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  reducesTo_S4096x8_S4096_d1 : S4096x8.ReducesTo [1] S4096
  h_S_ : 0 < S_.numel
  bcast_S4096_S4096x1_0 : S4096.BroadcastsInDim S4096x1 (![0] : Fin 1 → Fin S4096x1.rank)
  transposes_S4096x8_S8x4096_1_0 : S4096x8.Transposes [1, 0] S8x4096
  bcast_S_S4096x4096 : S_.BroadcastsInDim S4096x4096 (![] : Fin 0 → Fin S4096x4096.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x8_S8x4096_S4096x4096_1_0_0_1_n_n_wf : DotDims.WF S4096x8 S8x4096 S4096x4096 [1] [0] [0] [1] [] []
  dot_S4096x4096_S4096x4096_S4096x4096_1_0_0_1_n_n_wf : DotDims.WF S4096x4096 S4096x4096 S4096x4096 [1] [0] [0] [1] [] []

variable [Facts₀]

def dot_S4096x8_S8x4096_S4096x4096_1_0_0_1_n_n : DotDims S4096x8 S8x4096 S4096x4096 where
  lhsContracting := [1]
  rhsContracting := [0]
  lhsNonContracting := [0]
  rhsNonContracting := [1]
  lhsBatch := []
  rhsBatch := []
  wf := dot_S4096x8_S8x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.KernelBody.Cases.lean ====
/-
  The grid of the fused call is 4 row blocks by 8 contraction blocks, visited row block by row block: point
  `t` is row block `t / 8`, contraction block `t % 8`. The body resets the output block at the first
  contraction block of a row block (`t % 8 = 0`) and adds to it at the seven others. This module decides the
  two branch conditions over the 32 points, shows that one of the two branches always stores (the output is
  never left untouched), and names the staging memrefs the body is called with at a point.
-/
import proofs.«122184_g6064493822376_cont_9to1c4b_109_4_alg».proof.Proof.Gen.Kernel.Frame
import proofs.«122184_g6064493822376_cont_9to1c4b_109_4_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The reset branch is taken exactly at the first contraction block of each row block. -/
theorem first_iff : ∀ t : Fin cfg0.N, k0_cond1 (grid0.coords t) = 1#1 ↔ t.val % 8 = 0 :=
  (by decide +kernel : ∀ t : Fin grid0.N, k0_cond1 (grid0.coords t) = 1#1 ↔ t.val % 8 = 0)

/-- The accumulating branch is taken at every other point. -/
theorem later_iff : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-- At every grid coordinate one of the two branches stores into the output block: `k = 0` or `k ≠ 0`. -/
theorem never_idle (i : grid0.Coords) : idle0 3 i = false := by
  have key : ∀ j : Fin 8,
      (!(Scalar.cmpi .ne (Scalar.extui (Scalar.cmpi .eq (BitVec.ofNat 32 j.val) 0#32)) 0#32 == 1#1)
        && !(Scalar.cmpi .ne (Scalar.extui (Scalar.cmpi .ne (BitVec.ofNat 32 j.val) 0#32)) 0#32 == 1#1)) = false := by
    decide
  exact key (i 1)

/-- One staging buffer of the output window, through which the output block's contents are stated. -/
abbrev VO : View sig .tc .vmem S1024x4096 .f32 := (Memref.whole cc0_stg3_0 : Memref sig .tc .vmem S1024x4096 .f32).view

/-- The staging memrefs the body is called with at point `t`, and their wholeness. -/
abbrev ms0 (t : Fin cfg0.N) : Memref sig .tc .vmem S1024x8 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x8 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x4096 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x4096 .f32 := win0_3.stage (cfg0.slots t 3)
abbrev hs3 (t : Fin cfg0.N) : (ms3 t).IsWhole := hstage0_3 ((cfg0.slots t 3).cast nbuf0_3)

end Cert.Kernel.Body

end
-- ==== Proof.KernelBody.FirstStep.lean ====
/-
  The body at a point that opens a row block (contraction block 0): it reads its three input blocks, and
  overwrites the whole output block with the product it computed; what the output's staging buffer held before
  does not matter. The statement is a triple on arbitrary whole staging memrefs, together with the list of
  stores the run leaves in the output buffer.
-/
import proofs.«122184_g6064493822376_cont_9to1c4b_109_4_alg».proof.Proof.KernelBody.Cases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The stores the body leaves in the output's staging buffer at a point where the reset branch is taken (and
    the accumulating branch is not), with the proof that the body, run on whole staging memrefs holding the
    input blocks `x0`, `x1`, `x2` and an output buffer at any contents, reaches its continuation with the
    inputs unchanged and the output buffer at those stores. -/
noncomputable def runFirst (c : Dev nD) (i : grid0.Coords) (arg2 : Memref sig .tc .vmem S1024x8 .f32) (harg2 : arg2.IsWhole) (arg3 : Memref sig .tc .vmem S512x8 .f32) (harg3 : arg3.IsWhole)
    (arg4 : Memref sig .tc .vmem S512x4096 .bf16) (harg4 : arg4.IsWhole) (arg5 : Memref sig .tc .vmem S1024x4096 .f32) (harg5 : arg5.IsWhole)
    (hc1 : k0_cond1 i = 1#1) (hc2 : ¬ k0_cond2 i = 1#1)
    (x0 : Vec F S1024x8 .f32) (x1 : Vec F S512x8 .f32) (x2 : Vec F S512x4096 .bf16) :
    { L3 : List (View.Piece (Elt F) S1024x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc0__fused_kernel i arg2 harg2 arg3 harg3 arg4 harg4 arg5 harg5) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Body

end
-- ==== Proof.KernelBody.LaterStep.lean ====
/-
  The body at a point inside a row block (contraction block 1 to 7): it reads its three input blocks and the
  output block as the point before left it, and overwrites the whole output block with the sum of the two.
-/
import proofs.«122184_g6064493822376_cont_9to1c4b_109_4_alg».proof.Proof.KernelBody.FirstStep

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The stores the body leaves in the output's staging buffer at a point where the accumulating branch is taken
    (and the reset branch is not), with the proof that the body, run on whole staging memrefs holding the input
    blocks `x0`, `x1`, `x2` and the running output block `acc`, reaches its continuation with the inputs
    unchanged and the output buffer at those stores. -/
noncomputable def runLater (c : Dev nD) (i : grid0.Coords) (arg2 : Memref sig .tc .vmem S1024x8 .f32) (harg2 : arg2.IsWhole) (arg3 : Memref sig .tc .vmem S512x8 .f32) (harg3 : arg3.IsWhole)
    (arg4 : Memref sig .tc .vmem S512x4096 .bf16) (harg4 : arg4.IsWhole) (arg5 : Memref sig .tc .vmem S1024x4096 .f32) (harg5 : arg5.IsWhole)
    (hc1 : ¬ k0_cond1 i = 1#1) (hc2 : k0_cond2 i = 1#1)
    (x0 : Vec F S1024x8 .f32) (x1 : Vec F S512x8 .f32) (x2 : Vec F S512x4096 .bf16) (acc : Vec F S1024x4096 .f32) :
    { L3 : List (View.Piece (Elt F) S1024x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare acc
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc0__fused_kernel i arg2 harg2 arg3 harg3 arg4 harg4 arg5 harg5) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2
    obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Body

end
-- ==== Proof.KernelBody.Run.lean ====
/-
  The whole run of the fused call from the two per-point triples: what the output's staging buffer holds after
  each grid point (the product at the first contraction block of a row block, the running sum afterwards), the
  pipeline's proof data over it, the body obligation at every point, and the run of @main to the library's
  frame post, from which the frame claim follows.
-/
import proofs.«122184_g6064493822376_cont_9to1c4b_109_4_alg».proof.Proof.KernelBody.LaterStep

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reset branch's one store covers the whole output block. -/
theorem coverFirst (c : Dev nD) (i : grid0.Coords) (arg2 : Memref sig .tc .vmem S1024x8 .f32) (harg2 : arg2.IsWhole) (arg3 : Memref sig .tc .vmem S512x8 .f32) (harg3 : arg3.IsWhole)
    (arg4 : Memref sig .tc .vmem S512x4096 .bf16) (harg4 : arg4.IsWhole) (arg5 : Memref sig .tc .vmem S1024x4096 .f32) (harg5 : arg5.IsWhole)
    (hc1 : k0_cond1 i = 1#1) (hc2 : ¬ k0_cond2 i = 1#1)
    (x0 : Vec F S1024x8 .f32) (x1 : Vec F S512x8 .f32) (x2 : Vec F S512x4096 .bf16) (y : S1024x4096.Idx) :
    ∃ pc ∈ (runFirst c i arg2 harg2 arg3 harg3 arg4 harg4 arg5 harg5 hc1 hc2 x0 x1 x2).1, y ∈ pc.1.set :=
  View.cover_of_tiledL (runFirst c i arg2 harg2 arg3 harg3 arg4 harg4 arg5 harg5 hc1 hc2 x0 x1 x2).1 S1024x4096.size (by sl_kernel_rfl) y

/-- What a point that opens a row block leaves in the output's staging buffer. -/
def outFirst (c : Dev nD) (i : grid0.Coords) (arg2 : Memref sig .tc .vmem S1024x8 .f32) (harg2 : arg2.IsWhole) (arg3 : Memref sig .tc .vmem S512x8 .f32) (harg3 : arg3.IsWhole)
    (arg4 : Memref sig .tc .vmem S512x4096 .bf16) (harg4 : arg4.IsWhole) (arg5 : Memref sig .tc .vmem S1024x4096 .f32) (harg5 : arg5.IsWhole)
    (hc1 : k0_cond1 i = 1#1) (hc2 : ¬ k0_cond2 i = 1#1)
    (x0 : Vec F S1024x8 .f32) (x1 : Vec F S512x8 .f32) (x2 : Vec F S512x4096 .bf16) : Vec F S1024x4096 .f32 :=
  VO.read (Elt F) (VO.writes (Elt F) VO.junk (runFirst c i arg2 harg2 arg3 harg3 arg4 harg4 arg5 harg5 hc1 hc2 x0 x1 x2).1)

/-- The accumulating branch's one store covers the whole output block. -/
theorem coverLater (c : Dev nD) (i : grid0.Coords) (arg2 : Memref sig .tc .vmem S1024x8 .f32) (harg2 : arg2.IsWhole) (arg3 : Memref sig .tc .vmem S512x8 .f32) (harg3 : arg3.IsWhole)
    (arg4 : Memref sig .tc .vmem S512x4096 .bf16) (harg4 : arg4.IsWhole) (arg5 : Memref sig .tc .vmem S1024x4096 .f32) (harg5 : arg5.IsWhole)
    (hc1 : ¬ k0_cond1 i = 1#1) (hc2 : k0_cond2 i = 1#1)
    (x0 : Vec F S1024x8 .f32) (x1 : Vec F S512x8 .f32) (x2 : Vec F S512x4096 .bf16) (acc : Vec F S1024x4096 .f32) (y : S1024x4096.Idx) :
    ∃ pc ∈ (runLater c i arg2 harg2 arg3 harg3 arg4 harg4 arg5 harg5 hc1 hc2 x0 x1 x2 acc).1, y ∈ pc.1.set :=
  View.cover_of_tiledL (runLater c i arg2 harg2 arg3 harg3 arg4 harg4 arg5 harg5 hc1 hc2 x0 x1 x2 acc).1 S1024x4096.size (by sl_kernel_rfl) y

/-- What a point inside a row block leaves in the output's staging buffer, over the running block `acc`. -/
def outLater (c : Dev nD) (i : grid0.Coords) (arg2 : Memref sig .tc .vmem S1024x8 .f32) (harg2 : arg2.IsWhole) (arg3 : Memref sig .tc .vmem S512x8 .f32) (harg3 : arg3.IsWhole)
    (arg4 : Memref sig .tc .vmem S512x4096 .bf16) (harg4 : arg4.IsWhole) (arg5 : Memref sig .tc .vmem S1024x4096 .f32) (harg5 : arg5.IsWhole)
    (hc1 : ¬ k0_cond1 i = 1#1) (hc2 : k0_cond2 i = 1#1)
    (x0 : Vec F S1024x8 .f32) (x1 : Vec F S512x8 .f32) (x2 : Vec F S512x4096 .bf16) (acc : Vec F S1024x4096 .f32) : Vec F S1024x4096 .f32 :=
  VO.read (Elt F) (VO.writes (Elt F) VO.junk (runLater c i arg2 harg2 arg3 harg3 arg4 harg4 arg5 harg5 hc1 hc2 x0 x1 x2 acc).1)

/-! ## The output block point by point -/

/-- The output's staging buffer after the body at position `n`: at the first contraction block of a row block
    what the reset leaves, elsewhere what the accumulation leaves over the buffer of position `n - 1` (the
    buffer is not written back in between). -/
def outsAt (c : Dev nD) : (n : ℕ) → n < cfg0.N → Vec F S1024x4096 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩)
      ((first_iff ⟨0, hn⟩).mpr (Nat.zero_mod _)) (fun h => (later_iff ⟨0, hn⟩).mp h (Nat.zero_mod _))
      (iblk m c 0 ⟨0, hn⟩) (iblk m c 1 ⟨0, hn⟩) (iblk m c 2 ⟨0, hn⟩)
  | n + 1, hn =>
    if h0 : (n + 1) % 8 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        ((first_iff ⟨n + 1, hn⟩).mpr h0) (fun h => (later_iff ⟨n + 1, hn⟩).mp h h0)
        (iblk m c 0 ⟨n + 1, hn⟩) (iblk m c 1 ⟨n + 1, hn⟩) (iblk m c 2 ⟨n + 1, hn⟩)
    else
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        (fun h => h0 ((first_iff ⟨n + 1, hn⟩).mp h)) ((later_iff ⟨n + 1, hn⟩).mpr h0)
        (iblk m c 0 ⟨n + 1, hn⟩) (iblk m c 1 ⟨n + 1, hn⟩) (iblk m c 2 ⟨n + 1, hn⟩) (outsAt c n (Nat.lt_of_succ_lt hn))

/-- `outsAt` at a point that opens a row block. -/
theorem outsAt_first (c : Dev nD) (t : Fin cfg0.N) (h0 : t.val % 8 = 0) :
    outsAt m c t.val t.isLt = outFirst c (grid0.coords t) (ms0 t) (hs0 t) (ms1 t) (hs1 t) (ms2 t) (hs2 t) (ms3 t) (hs3 t)
      ((first_iff t).mpr h0) (fun h => (later_iff t).mp h h0) (iblk m c 0 t) (iblk m c 1 t) (iblk m c 2 t) := by
  obtain ⟨n, hn⟩ := t
  cases n with
  | zero => exact rfl
  | succ n => exact (dif_pos h0).trans rfl

/-- `outsAt` at a point inside a row block: the accumulation over what the point before left. -/
theorem outsAt_later (c : Dev nD) (t : Fin cfg0.N) (h0 : ¬t.val % 8 = 0) :
    outsAt m c t.val t.isLt = outLater c (grid0.coords t) (ms0 t) (hs0 t) (ms1 t) (hs1 t) (ms2 t) (hs2 t) (ms3 t) (hs3 t)
      (fun h => h0 ((first_iff t).mp h)) ((later_iff t).mpr h0) (iblk m c 0 t) (iblk m c 1 t) (iblk m c 2 t)
      (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point
    `t` each input's buffer at its block and the output's at `outsAt`; the invariant the scoped rest and the
    generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt m c t.val t.isLt) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Inside a row block the output's staging buffer holds what the body left at the point before: that point
    did not write the block back (write-backs happen at the last contraction block only), and the window is
    never idle and never clipped. -/
theorem before0_3_later (c : Dev nD) (t : Fin cfg0.N) (h0 : ¬t.val % 8 = 0) (d) :
    (dats m 0 c).before 3 t d = (outsAt m c (t.val - 1) (Nat.lt_of_le_of_lt (Nat.sub_le _ _) t.isLt)) := by
  have hN : t.val < 32 := lt_of_lt_of_eq t.isLt (show cfg0.N = 32 from N_0)
  have hlive : ∀ i : cfg0.grid.Coords, cfg0.idle 3 i = false := fun i => never_idle i
  rw [Dat.before_out_kept (dats m 0 c) 3 rfl t (by omega) (Bool.eq_false_iff.mpr fun h => by have := (flush0_3 _).mp h; dsimp only at this; omega)
    hlive (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the inputs' memrefs hold their blocks; the point either opens a row block, where the
    reset triple applies whatever the output buffer holds, or lies inside one, where the output buffer holds
    what the point before left and the accumulation triple applies; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 32 := lt_of_lt_of_eq t.isLt (show cfg0.N = 32 from N_0)
  by_cases h0 : t.val % 8 = 0
  · rw [outsAt_first m c t h0]
    unfold outFirst
    iintro ⟨HΦ, Ho, ⟨%d0, H0⟩, ⟨%d1, H1⟩, ⟨%d2, H2⟩, ⟨%d3, H3⟩⟩
    iapply ((runFirst c (grid0.coords t) _ _ _ _ _ _ _ _ ((first_iff t).mpr h0) (fun h => (later_iff t).mp h h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverFirst c _ _ _ _ _ _ _ _ _ _ _ _ _ _)
  · rw [outsAt_later m c t h0]
    simp only [before0_3_later m c t h0]
    unfold outLater
    iintro ⟨HΦ, Ho, ⟨%d0, H0⟩, ⟨%d1, H1⟩, ⟨%d2, H2⟩, ⟨%d3, H3⟩⟩
    iapply ((runLater c (grid0.coords t) _ _ _ _ _ _ _ _ (fun h => h0 ((first_iff t).mp h)) ((later_iff t).mpr h0) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverLater c _ _ _ _ _ _ _ _ _ _ _ _ _ _ _)

/-- The library's body obligation, at every point (the output window is never idle, so its clause is the plain
    one). -/
theorem body_obligation (c : Dev nD) : BodyObligation (dats (F := F) m 0 c) (defs₀ (F := F)) Variants.none () Set.univ := fun t => by
  rw [bigSep_W0, bigSep_W0]
  have hidle : idle0 3 (grid0.coords t) = false := never_idle _
  simp only [hidle]
  exact sound_body m c t

/-! ## The run and the frame -/

set_option backward.isDefEq.respectTransparency.types false in
/-- From any memory with zero counters every weakly fair execution of @main terminates, with every array of the
    pipeline at what the library computes from the proof data and every other unscoped buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's post at any `F`: the run terminates, nothing faults, the three argument arrays end
    unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KernelIdealBody.Cases.lean ====
/-
  The grid of the fused call is 4 row blocks by 8 contraction blocks, visited row block by row block: point
  `t` is row block `t / 8`, contraction block `t % 8`. The body resets the output block at the first
  contraction block of a row block (`t % 8 = 0`) and adds to it at the seven others. This module decides the
  two branch conditions over the 32 points, shows that one of the two branches always stores (the output is
  never left untouched), and names the staging memrefs the body is called with at a point.
-/
import proofs.«122184_g6064493822376_cont_9to1c4b_109_4_alg».proof.Proof.Gen.KernelIdeal.Frame
import proofs.«122184_g6064493822376_cont_9to1c4b_109_4_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The reset branch is taken exactly at the first contraction block of each row block. -/
theorem first_iff : ∀ t : Fin cfg0.N, k0_cond1 (grid0.coords t) = 1#1 ↔ t.val % 8 = 0 :=
  (by decide +kernel : ∀ t : Fin grid0.N, k0_cond1 (grid0.coords t) = 1#1 ↔ t.val % 8 = 0)

/-- The accumulating branch is taken at every other point. -/
theorem later_iff : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-- At every grid coordinate one of the two branches stores into the output block: `k = 0` or `k ≠ 0`. -/
theorem never_idle (i : grid0.Coords) : idle0 3 i = false := by
  have key : ∀ j : Fin 8,
      (!(Scalar.cmpi .ne (Scalar.extui (Scalar.cmpi .eq (BitVec.ofNat 32 j.val) 0#32)) 0#32 == 1#1)
        && !(Scalar.cmpi .ne (Scalar.extui (Scalar.cmpi .ne (BitVec.ofNat 32 j.val) 0#32)) 0#32 == 1#1)) = false := by
    decide
  exact key (i 1)

/-- One staging buffer of the output window, through which the output block's contents are stated. -/
abbrev VO : View sig .tc .vmem S1024x4096 .f32 := (Memref.whole cc0_stg3_0 : Memref sig .tc .vmem S1024x4096 .f32).view

/-- The staging memrefs the body is called with at point `t`, and their wholeness. -/
abbrev ms0 (t : Fin cfg0.N) : Memref sig .tc .vmem S1024x8 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x8 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x4096 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x4096 .f32 := win0_3.stage (cfg0.slots t 3)
abbrev hs3 (t : Fin cfg0.N) : (ms3 t).IsWhole := hstage0_3 ((cfg0.slots t 3).cast nbuf0_3)

end Cert.KernelIdeal.Body

end
-- ==== Proof.KernelIdealBody.FirstStep.lean ====
/-
  The body at a point that opens a row block (contraction block 0): it reads its three input blocks, and
  overwrites the whole output block with the product it computed; what the output's staging buffer held before
  does not matter. The statement is a triple on arbitrary whole staging memrefs, together with the list of
  stores the run leaves in the output buffer.
-/
import proofs.«122184_g6064493822376_cont_9to1c4b_109_4_alg».proof.Proof.KernelIdealBody.Cases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The stores the body leaves in the output's staging buffer at a point where the reset branch is taken (and
    the accumulating branch is not), with the proof that the body, run on whole staging memrefs holding the
    input blocks `x0`, `x1`, `x2` and an output buffer at any contents, reaches its continuation with the
    inputs unchanged and the output buffer at those stores. -/
noncomputable def runFirst (c : Dev nD) (i : grid0.Coords) (arg2 : Memref sig .tc .vmem S1024x8 .f32) (harg2 : arg2.IsWhole) (arg3 : Memref sig .tc .vmem S512x8 .f32) (harg3 : arg3.IsWhole)
    (arg4 : Memref sig .tc .vmem S512x4096 .bf16) (harg4 : arg4.IsWhole) (arg5 : Memref sig .tc .vmem S1024x4096 .f32) (harg5 : arg5.IsWhole)
    (hc1 : k0_cond1 i = 1#1) (hc2 : ¬ k0_cond2 i = 1#1)
    (x0 : Vec F S1024x8 .f32) (x1 : Vec F S512x8 .f32) (x2 : Vec F S512x4096 .bf16) :
    { L3 : List (View.Piece (Elt F) S1024x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc0__fused_kernel i arg2 harg2 arg3 harg3 arg4 harg4 arg5 harg5) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Body

end
-- ==== Proof.KernelIdealBody.LaterStep.lean ====
/-
  The body at a point inside a row block (contraction block 1 to 7): it reads its three input blocks and the
  output block as the point before left it, and overwrites the whole output block with the sum of the two.
-/
import proofs.«122184_g6064493822376_cont_9to1c4b_109_4_alg».proof.Proof.KernelIdealBody.FirstStep

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The stores the body leaves in the output's staging buffer at a point where the accumulating branch is taken
    (and the reset branch is not), with the proof that the body, run on whole staging memrefs holding the input
    blocks `x0`, `x1`, `x2` and the running output block `acc`, reaches its continuation with the inputs
    unchanged and the output buffer at those stores. -/
noncomputable def runLater (c : Dev nD) (i : grid0.Coords) (arg2 : Memref sig .tc .vmem S1024x8 .f32) (harg2 : arg2.IsWhole) (arg3 : Memref sig .tc .vmem S512x8 .f32) (harg3 : arg3.IsWhole)
    (arg4 : Memref sig .tc .vmem S512x4096 .bf16) (harg4 : arg4.IsWhole) (arg5 : Memref sig .tc .vmem S1024x4096 .f32) (harg5 : arg5.IsWhole)
    (hc1 : ¬ k0_cond1 i = 1#1) (hc2 : k0_cond2 i = 1#1)
    (x0 : Vec F S1024x8 .f32) (x1 : Vec F S512x8 .f32) (x2 : Vec F S512x4096 .bf16) (acc : Vec F S1024x4096 .f32) :
    { L3 : List (View.Piece (Elt F) S1024x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare acc
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)) -∗ K ⟨⟩))
          ⊢ wp frame (wpE (defs₀ (F := F)) Variants.none c none) E (cc0__fused_kernel i arg2 harg2 arg3 harg3 arg4 harg4 arg5 harg5) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2
    obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Body

end
-- ==== Proof.KernelIdealBody.Run.lean ====
/-
  The whole run of the fused call from the two per-point triples: what the output's staging buffer holds after
  each grid point (the product at the first contraction block of a row block, the running sum afterwards), the
  pipeline's proof data over it, the body obligation at every point, and the run of @main to the library's
  frame post, from which the frame claim follows.
-/
import proofs.«122184_g6064493822376_cont_9to1c4b_109_4_alg».proof.Proof.KernelIdealBody.LaterStep

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reset branch's one store covers the whole output block. -/
theorem coverFirst (c : Dev nD) (i : grid0.Coords) (arg2 : Memref sig .tc .vmem S1024x8 .f32) (harg2 : arg2.IsWhole) (arg3 : Memref sig .tc .vmem S512x8 .f32) (harg3 : arg3.IsWhole)
    (arg4 : Memref sig .tc .vmem S512x4096 .bf16) (harg4 : arg4.IsWhole) (arg5 : Memref sig .tc .vmem S1024x4096 .f32) (harg5 : arg5.IsWhole)
    (hc1 : k0_cond1 i = 1#1) (hc2 : ¬ k0_cond2 i = 1#1)
    (x0 : Vec F S1024x8 .f32) (x1 : Vec F S512x8 .f32) (x2 : Vec F S512x4096 .bf16) (y : S1024x4096.Idx) :
    ∃ pc ∈ (runFirst c i arg2 harg2 arg3 harg3 arg4 harg4 arg5 harg5 hc1 hc2 x0 x1 x2).1, y ∈ pc.1.set :=
  View.cover_of_tiledL (runFirst c i arg2 harg2 arg3 harg3 arg4 harg4 arg5 harg5 hc1 hc2 x0 x1 x2).1 S1024x4096.size (by sl_kernel_rfl) y

/-- What a point that opens a row block leaves in the output's staging buffer. -/
def outFirst (c : Dev nD) (i : grid0.Coords) (arg2 : Memref sig .tc .vmem S1024x8 .f32) (harg2 : arg2.IsWhole) (arg3 : Memref sig .tc .vmem S512x8 .f32) (harg3 : arg3.IsWhole)
    (arg4 : Memref sig .tc .vmem S512x4096 .bf16) (harg4 : arg4.IsWhole) (arg5 : Memref sig .tc .vmem S1024x4096 .f32) (harg5 : arg5.IsWhole)
    (hc1 : k0_cond1 i = 1#1) (hc2 : ¬ k0_cond2 i = 1#1)
    (x0 : Vec F S1024x8 .f32) (x1 : Vec F S512x8 .f32) (x2 : Vec F S512x4096 .bf16) : Vec F S1024x4096 .f32 :=
  VO.read (Elt F) (VO.writes (Elt F) VO.junk (runFirst c i arg2 harg2 arg3 harg3 arg4 harg4 arg5 harg5 hc1 hc2 x0 x1 x2).1)

/-- The accumulating branch's one store covers the whole output block. -/
theorem coverLater (c : Dev nD) (i : grid0.Coords) (arg2 : Memref sig .tc .vmem S1024x8 .f32) (harg2 : arg2.IsWhole) (arg3 : Memref sig .tc .vmem S512x8 .f32) (harg3 : arg3.IsWhole)
    (arg4 : Memref sig .tc .vmem S512x4096 .bf16) (harg4 : arg4.IsWhole) (arg5 : Memref sig .tc .vmem S1024x4096 .f32) (harg5 : arg5.IsWhole)
    (hc1 : ¬ k0_cond1 i = 1#1) (hc2 : k0_cond2 i = 1#1)
    (x0 : Vec F S1024x8 .f32) (x1 : Vec F S512x8 .f32) (x2 : Vec F S512x4096 .bf16) (acc : Vec F S1024x4096 .f32) (y : S1024x4096.Idx) :
    ∃ pc ∈ (runLater c i arg2 harg2 arg3 harg3 arg4 harg4 arg5 harg5 hc1 hc2 x0 x1 x2 acc).1, y ∈ pc.1.set :=
  View.cover_of_tiledL (runLater c i arg2 harg2 arg3 harg3 arg4 harg4 arg5 harg5 hc1 hc2 x0 x1 x2 acc).1 S1024x4096.size (by sl_kernel_rfl) y

/-- What a point inside a row block leaves in the output's staging buffer, over the running block `acc`. -/
def outLater (c : Dev nD) (i : grid0.Coords) (arg2 : Memref sig .tc .vmem S1024x8 .f32) (harg2 : arg2.IsWhole) (arg3 : Memref sig .tc .vmem S512x8 .f32) (harg3 : arg3.IsWhole)
    (arg4 : Memref sig .tc .vmem S512x4096 .bf16) (harg4 : arg4.IsWhole) (arg5 : Memref sig .tc .vmem S1024x4096 .f32) (harg5 : arg5.IsWhole)
    (hc1 : ¬ k0_cond1 i = 1#1) (hc2 : k0_cond2 i = 1#1)
    (x0 : Vec F S1024x8 .f32) (x1 : Vec F S512x8 .f32) (x2 : Vec F S512x4096 .bf16) (acc : Vec F S1024x4096 .f32) : Vec F S1024x4096 .f32 :=
  VO.read (Elt F) (VO.writes (Elt F) VO.junk (runLater c i arg2 harg2 arg3 harg3 arg4 harg4 arg5 harg5 hc1 hc2 x0 x1 x2 acc).1)

/-! ## The output block point by point -/

/-- The output's staging buffer after the body at position `n`: at the first contraction block of a row block
    what the reset leaves, elsewhere what the accumulation leaves over the buffer of position `n - 1` (the
    buffer is not written back in between). -/
def outsAt (c : Dev nD) : (n : ℕ) → n < cfg0.N → Vec F S1024x4096 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩)
      ((first_iff ⟨0, hn⟩).mpr (Nat.zero_mod _)) (fun h => (later_iff ⟨0, hn⟩).mp h (Nat.zero_mod _))
      (iblk m c 0 ⟨0, hn⟩) (iblk m c 1 ⟨0, hn⟩) (iblk m c 2 ⟨0, hn⟩)
  | n + 1, hn =>
    if h0 : (n + 1) % 8 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        ((first_iff ⟨n + 1, hn⟩).mpr h0) (fun h => (later_iff ⟨n + 1, hn⟩).mp h h0)
        (iblk m c 0 ⟨n + 1, hn⟩) (iblk m c 1 ⟨n + 1, hn⟩) (iblk m c 2 ⟨n + 1, hn⟩)
    else
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        (fun h => h0 ((first_iff ⟨n + 1, hn⟩).mp h)) ((later_iff ⟨n + 1, hn⟩).mpr h0)
        (iblk m c 0 ⟨n + 1, hn⟩) (iblk m c 1 ⟨n + 1, hn⟩) (iblk m c 2 ⟨n + 1, hn⟩) (outsAt c n (Nat.lt_of_succ_lt hn))

/-- `outsAt` at a point that opens a row block. -/
theorem outsAt_first (c : Dev nD) (t : Fin cfg0.N) (h0 : t.val % 8 = 0) :
    outsAt m c t.val t.isLt = outFirst c (grid0.coords t) (ms0 t) (hs0 t) (ms1 t) (hs1 t) (ms2 t) (hs2 t) (ms3 t) (hs3 t)
      ((first_iff t).mpr h0) (fun h => (later_iff t).mp h h0) (iblk m c 0 t) (iblk m c 1 t) (iblk m c 2 t) := by
  obtain ⟨n, hn⟩ := t
  cases n with
  | zero => exact rfl
  | succ n => exact (dif_pos h0).trans rfl

/-- `outsAt` at a point inside a row block: the accumulation over what the point before left. -/
theorem outsAt_later (c : Dev nD) (t : Fin cfg0.N) (h0 : ¬t.val % 8 = 0) :
    outsAt m c t.val t.isLt = outLater c (grid0.coords t) (ms0 t) (hs0 t) (ms1 t) (hs1 t) (ms2 t) (hs2 t) (ms3 t) (hs3 t)
      (fun h => h0 ((first_iff t).mp h)) ((later_iff t).mpr h0) (iblk m c 0 t) (iblk m c 1 t) (iblk m c 2 t)
      (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point
    `t` each input's buffer at its block and the output's at `outsAt`; the invariant the scoped rest and the
    generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt m c t.val t.isLt) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Inside a row block the output's staging buffer holds what the body left at the point before: that point
    did not write the block back (write-backs happen at the last contraction block only), and the window is
    never idle and never clipped. -/
theorem before0_3_later (c : Dev nD) (t : Fin cfg0.N) (h0 : ¬t.val % 8 = 0) (d) :
    (dats m 0 c).before 3 t d = (outsAt m c (t.val - 1) (Nat.lt_of_le_of_lt (Nat.sub_le _ _) t.isLt)) := by
  have hN : t.val < 32 := lt_of_lt_of_eq t.isLt (show cfg0.N = 32 from N_0)
  have hlive : ∀ i : cfg0.grid.Coords, cfg0.idle 3 i = false := fun i => never_idle i
  rw [Dat.before_out_kept (dats m 0 c) 3 rfl t (by omega) (Bool.eq_false_iff.mpr fun h => by have := (flush0_3 _).mp h; dsimp only at this; omega)
    hlive (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the inputs' memrefs hold their blocks; the point either opens a row block, where the
    reset triple applies whatever the output buffer holds, or lies inside one, where the output buffer holds
    what the point before left and the accumulation triple applies; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 32 := lt_of_lt_of_eq t.isLt (show cfg0.N = 32 from N_0)
  by_cases h0 : t.val % 8 = 0
  · rw [outsAt_first m c t h0]
    unfold outFirst
    iintro ⟨HΦ, Ho, ⟨%d0, H0⟩, ⟨%d1, H1⟩, ⟨%d2, H2⟩, ⟨%d3, H3⟩⟩
    iapply ((runFirst c (grid0.coords t) _ _ _ _ _ _ _ _ ((first_iff t).mpr h0) (fun h => (later_iff t).mp h h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverFirst c _ _ _ _ _ _ _ _ _ _ _ _ _ _)
  · rw [outsAt_later m c t h0]
    simp only [before0_3_later m c t h0]
    unfold outLater
    iintro ⟨HΦ, Ho, ⟨%d0, H0⟩, ⟨%d1, H1⟩, ⟨%d2, H2⟩, ⟨%d3, H3⟩⟩
    iapply ((runLater c (grid0.coords t) _ _ _ _ _ _ _ _ (fun h => h0 ((first_iff t).mp h)) ((later_iff t).mpr h0) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverLater c _ _ _ _ _ _ _ _ _ _ _ _ _ _ _)

/-- The library's body obligation, at every point (the output window is never idle, so its clause is the plain
    one). -/
theorem body_obligation (c : Dev nD) : BodyObligation (dats (F := F) m 0 c) (defs₀ (F := F)) Variants.none () Set.univ := fun t => by
  rw [bigSep_W0, bigSep_W0]
  have hidle : idle0 3 (grid0.coords t) = false := never_idle _
  simp only [hidle]
  exact sound_body m c t

/-! ## The run and the frame -/

set_option backward.isDefEq.respectTransparency.types false in
/-- From any memory with zero counters every weakly fair execution of @main terminates, with every array of the
    pipeline at what the library computes from the proof data and every other unscoped buffer as the region
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's post at any `F`: the run terminates, nothing faults, the three argument arrays end
    unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.KernelIdealValue.Stored.lean ====
/-
  What the two branches leave in the output block, as values: the reset leaves the contribution of the point's
  three input blocks; the accumulation leaves the running block plus that contribution. Each branch has one
  store, of the whole block, so reading the stores back is reading that store's value, and the loads the value
  was computed from are the whole staging buffers.
-/
import proofs.«122184_g6064493822376_cont_9to1c4b_109_4_alg».proof.Proof.KernelIdealBody.Run
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- At a point that opens a row block the output block is left at the contribution of the input blocks. -/
theorem outFirst_eq (c : Dev nD) (i : grid0.Coords) (arg2 : Memref sig .tc .vmem S1024x8 .f32) (harg2 : arg2.IsWhole) (arg3 : Memref sig .tc .vmem S512x8 .f32) (harg3 : arg3.IsWhole)
    (arg4 : Memref sig .tc .vmem S512x4096 .bf16) (harg4 : arg4.IsWhole) (arg5 : Memref sig .tc .vmem S1024x4096 .f32) (harg5 : arg5.IsWhole)
    (hc1 : k0_cond1 i = 1#1) (hc2 : ¬ k0_cond2 i = 1#1)
    (x0 : Vec F S1024x8 .f32) (x1 : Vec F S512x8 .f32) (x2 : Vec F S512x4096 .bf16) :
    outFirst c i arg2 harg2 arg3 harg3 arg4 harg4 arg5 harg5 hc1 hc2 x0 x1 x2 = k0_pay1 x0 x1 x2 := by
  unfold outFirst
  rw [View.read_writes_eq_canon _ _ _ (coverFirst c i arg2 harg2 arg3 harg3 arg4 harg4 arg5 harg5 hc1 hc2 x0 x1 x2)]
  unfold runFirst
  dsimp only

  rw [View.canon_unit_zero hz]
  simp only [View.readAt_eq_ld, harg2.read_unread, harg3.read_unread, harg4.read_unread,
    View.ld_unit_zero (S := S1024x8) hz, View.ld_unit_zero (S := S512x8) hz, View.ld_unit_zero (S := S512x4096) hz]

/-- At a point inside a row block the output block is left at the running block plus the contribution. -/
theorem outLater_eq (c : Dev nD) (i : grid0.Coords) (arg2 : Memref sig .tc .vmem S1024x8 .f32) (harg2 : arg2.IsWhole) (arg3 : Memref sig .tc .vmem S512x8 .f32) (harg3 : arg3.IsWhole)
    (arg4 : Memref sig .tc .vmem S512x4096 .bf16) (harg4 : arg4.IsWhole) (arg5 : Memref sig .tc .vmem S1024x4096 .f32) (harg5 : arg5.IsWhole)
    (hc1 : ¬ k0_cond1 i = 1#1) (hc2 : k0_cond2 i = 1#1)
    (x0 : Vec F S1024x8 .f32) (x1 : Vec F S512x8 .f32) (x2 : Vec F S512x4096 .bf16) (acc : Vec F S1024x4096 .f32) :
    outLater c i arg2 harg2 arg3 harg3 arg4 harg4 arg5 harg5 hc1 hc2 x0 x1 x2 acc = k0_pay2 x0 x1 x2 acc := by
  unfold outLater
  rw [View.read_writes_eq_canon _ _ _ (coverLater c i arg2 harg2 arg3 harg3 arg4 harg4 arg5 harg5 hc1 hc2 x0 x1 x2 acc)]
  unfold runLater
  dsimp only

  rw [View.canon_unit_zero hz]
  simp only [View.readAt_eq_ld, harg2.read_unread, harg3.read_unread, harg4.read_unread, harg5.read_unread,
    View.ld_unit_zero (S := S1024x8) hz, View.ld_unit_zero (S := S512x8) hz, View.ld_unit_zero (S := S512x4096) hz,
    View.ld_unit_zero (S := S1024x4096) hz]

end Cert.KernelIdeal.Body

end
-- ==== Proof.RbfSum.lean ====
/-
  The mathematics both programs compute, over the extended reals.

  For two 8-vectors `u`, `v` the radial kernel entry is `exp(-1/2 · max(|u|² − 2·⟨u,v⟩ + |v|², 0))`, the three
  numbers spelt by the same float words in both programs. Entry `(r, c)` of the result is the sum over the 4096
  grid rows `j` of `rbf (X r) (G j) · C j c`. The fused call does not take this sum at once: it adds 512 grid rows
  at a time, eight times, into a running block. Addition of extended reals is associative and commutative, so
  cutting a sum over `range 4096` into eight consecutive stretches of 512 changes nothing; that is all this
  module needs, and no finiteness of the inputs.
-/
import Idealize.ShloMosaic.PureOps.Ideal
import Idealize.ShloMosaic.PureOps.Ideal.Laws

noncomputable section

namespace Cert.Rbf

open Idealize.ShloMosaic

/-- The squared length of an 8-vector. -/
def sqLen (u : Fin 8 → EReal) : EReal := ∑ d : Fin 8, u d * u d

/-- The inner product of two 8-vectors. -/
def inner8 (u v : Fin 8 → EReal) : EReal := ∑ d : Fin 8, u d * v d

/-- The radial kernel entry of two 8-vectors: `exp(-1/2 · max(|u|² − 2⟨u,v⟩ + |v|², 0))`, the constants the float
    words `-0.5`, `2.0`, `0.0` of both programs. -/
def rbf (u v : Fin 8 → EReal) : EReal :=
  Ideal.exp (Ideal.ofBits .f32 0xBF000000#32
    * max ((sqLen u - Ideal.ofBits .f32 0x40000000#32 * inner8 u v) + sqLen v) (Ideal.ofBits .f32 0x00000000#32))

/-- Summand `j` of entry `(r, c)`: the kernel entry of input row `r` and grid row `j` times `C j c`; zero past the
    4096 grid rows, so that partial sums can be taken over `range n`. -/
def term (X G : Fin 4096 → Fin 8 → EReal) (C : Fin 4096 → Fin 4096 → EReal) (r c : Fin 4096) (j : ℕ) : EReal :=
  if h : j < 4096 then rbf (X r) (G ⟨j, h⟩) * C ⟨j, h⟩ c else 0

/-- The sum of the first `n` summands of entry `(r, c)`. -/
def partialSum (X G : Fin 4096 → Fin 8 → EReal) (C : Fin 4096 → Fin 4096 → EReal) (r c : Fin 4096) (n : ℕ) : EReal :=
  ∑ j ∈ Finset.range n, term X G C r c j

/-- Entry `(r, c)` of the result: the whole sum over the grid rows. -/
def entry (X G : Fin 4096 → Fin 8 → EReal) (C : Fin 4096 → Fin 4096 → EReal) (r c : Fin 4096) : EReal :=
  ∑ j : Fin 4096, rbf (X r) (G j) * C j c

theorem partialSum_zero (X G : Fin 4096 → Fin 8 → EReal) (C : Fin 4096 → Fin 4096 → EReal) (r c : Fin 4096) :
    partialSum X G C r c 0 = 0 := by
  unfold partialSum; rw [Finset.range_zero, Finset.sum_empty]

/-- One more stretch of 512 grid rows: the partial sum grows by that stretch's summands. -/
theorem partialSum_stretch (X G : Fin 4096 → Fin 8 → EReal) (C : Fin 4096 → Fin 4096 → EReal) (r c : Fin 4096) (k : ℕ) :
    partialSum X G C r c ((k + 1) * 512) = partialSum X G C r c (k * 512) + ∑ j : Fin 512, term X G C r c (k * 512 + j.val) := by
  unfold partialSum
  rw [show (k + 1) * 512 = k * 512 + 512 by ring, Finset.sum_range_add,
    Fin.sum_univ_eq_sum_range (fun i => term X G C r c (k * 512 + i)) 512]

/-- All eight stretches: the whole sum. -/
theorem partialSum_full (X G : Fin 4096 → Fin 8 → EReal) (C : Fin 4096 → Fin 4096 → EReal) (r c : Fin 4096) :
    partialSum X G C r c 4096 = entry X G C r c := by
  unfold partialSum entry
  rw [← Fin.sum_univ_eq_sum_range (fun j => term X G C r c j) 4096]
  refine Finset.sum_congr rfl fun j _ => ?_
  unfold term
  rw [dif_pos j.isLt]

/-- A summand inside the grid rows. -/
theorem term_lt (X G : Fin 4096 → Fin 8 → EReal) (C : Fin 4096 → Fin 4096 → EReal) (r c : Fin 4096) (j : ℕ) (h : j < 4096) :
    term X G C r c j = rbf (X r) (G ⟨j, h⟩) * C ⟨j, h⟩ c := by
  unfold term; rw [dif_pos h]

end Cert.Rbf

end
-- ==== Proof.KernelIdealValue.Entry.lean ====
/-
  One contraction block's contribution, read entry by entry at the ideal instance.

  At a grid point the body holds a block `x` of 1024 input rows, a block `g` of 512 grid rows and the matching
  512 rows `w` of the right factor. Its product block has, at row `r` and column `c`,
  `∑ j < 512, rbf (x r) (g j) · w j c`: a row's squared length is the lane sum of its squares, the cross term is
  the product `x · gᵀ` into a zero accumulator, the three are combined entry by entry (the squared lengths spread
  along the other axis), and the result is multiplied into `w`, again into a zero accumulator. A change of float
  format is the identity here.
-/
import proofs.«122184_g6064493822376_cont_9to1c4b_109_4_alg».proof.Proof.Gen.KernelIdeal.Skeleton
import proofs.«122184_g6064493822376_cont_9to1c4b_109_4_alg».proof.Proof.RbfSum
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Entry

open Cert.KernelIdeal Cert.KernelIdeal.Gen Idealize.ShloMosaic Idealize.ShloMosaic.ValueIdx Cert.Rbf
open Cert.KernelIdeal.Facts₀

/-- The lane sum of a block's squares, at row `r`: that row's squared length. -/
theorem laneSumSq_apply {n : ℕ} (v : FVec Ideal ⟨2, ![n, 8]⟩ .f32) (h : (⟨2, ![n, 8]⟩ : Shape).Reduces [1] ⟨1, ![n]⟩)
    (hφ : FKind.Formats .f32) (hacc : (0x00000000#32 : BitVec 32) = FKind.add.neutral .f32 hφ) (r : Fin n) :
    multiReduction .add [1] ⟨1, ![n]⟩ (mulf v v) 0x00000000#32 h hφ hacc (ix1 r) = sqLen (fun d => v (ix2 r d)) := by
  refine (Ideal.multiReduction_add_single (mulf v v) 0x00000000#32 h hφ hacc (ix1 r)).trans ?_
  unfold sqLen
  refine Finset.sum_congr rfl fun d _ => ?_
  have e : h.lift (ix1 r) d = ix2 r d := funext fun a => Fin.ext (by match a with | ⟨0, _⟩ => rfl | ⟨1, _⟩ => rfl)
  rw [e]; rfl

/-- A length-1024 vector made a column and spread over 512 columns reads, at `(r, j)`, the vector at `r`. -/
theorem spreadRows_apply {α : Type} (w : S1024.Idx → α) (hs : S1024.ShapeCasts S1024x1) (hb : S1024x1.Broadcasts S1024x512)
    (r : Fin 1024) (j : Fin 512) : broadcastTo S1024x512 (shapeCast S1024x1 w hs) hb (ix2 r j) = w (ix1 r) := by
  refine (broadcastTo_apply (shapeCast S1024x1 w hs) hb (ix2 r j) (ix2 r (0 : Fin 1)) (fun a => ?_)).trans
    (shapeCast_apply w hs (ix2 r (0 : Fin 1)) (ix1 r) ?_)
  · match a with
    | ⟨0, _⟩ => show r.val = if (1024 : ℕ) = 1 then 0 else r.val; rw [if_neg (by decide)]
    | ⟨1, _⟩ => show 0 = if (1 : ℕ) = 1 then 0 else j.val; rw [if_pos rfl]
  · rw [Shape.rowMajor_val_two, Shape.rowMajor_val_one]
    show r.val = r.val * 1 + 0
    omega

/-- A length-512 vector made a row and spread over 1024 rows reads, at `(r, j)`, the vector at `j`. -/
theorem spreadCols_apply {α : Type} (w : S512.Idx → α) (hs : S512.ShapeCasts S1x512) (hb : S1x512.Broadcasts S1024x512)
    (r : Fin 1024) (j : Fin 512) : broadcastTo S1024x512 (shapeCast S1x512 w hs) hb (ix2 r j) = w (ix1 j) :=
  (broadcastTo_1b_ab_apply (shapeCast S1x512 w hs) hb r j).trans (shapeCast_a_1a_apply w hs (0 : Fin 1) j)

/-! ### The product `x · gᵀ` into zero: inner products of rows -/

theorem gramL0 (i : S1024x512.Idx) (q : dot_S1024x8_S512x8_S1024x512_1_1_0_0_n_n.contr.Idx) : (dot_S1024x8_S512x8_S1024x512_1_1_0_0_n_n.lhsIdx i q 0).val = (i 0).val := by
  unfold DotDims.lhsIdx
  rw [dif_neg (show ¬(0 : Fin S1024x8.rank) ∈ dot_S1024x8_S512x8_S1024x512_1_1_0_0_n_n.lhsBatch by decide), dif_pos (show (0 : Fin S1024x8.rank) ∈ dot_S1024x8_S512x8_S1024x512_1_1_0_0_n_n.lhsNonContracting by decide)]
  rfl
theorem gramL1 (i : S1024x512.Idx) (q : dot_S1024x8_S512x8_S1024x512_1_1_0_0_n_n.contr.Idx) : (dot_S1024x8_S512x8_S1024x512_1_1_0_0_n_n.lhsIdx i q 1).val = (q ⟨0, by decide⟩).val :=
  dot_S1024x8_S512x8_S1024x512_1_1_0_0_n_n.lhsIdx_val_of_single rfl i q
theorem gramR0 (i : S1024x512.Idx) (q : dot_S1024x8_S512x8_S1024x512_1_1_0_0_n_n.contr.Idx) : (dot_S1024x8_S512x8_S1024x512_1_1_0_0_n_n.rhsIdx i q 0).val = (i 1).val := by
  unfold DotDims.rhsIdx
  rw [dif_neg (show ¬(0 : Fin S512x8.rank) ∈ dot_S1024x8_S512x8_S1024x512_1_1_0_0_n_n.rhsBatch by decide), dif_pos (show (0 : Fin S512x8.rank) ∈ dot_S1024x8_S512x8_S1024x512_1_1_0_0_n_n.rhsNonContracting by decide)]
  rfl
theorem gramR1 (i : S1024x512.Idx) (q : dot_S1024x8_S512x8_S1024x512_1_1_0_0_n_n.contr.Idx) : (dot_S1024x8_S512x8_S1024x512_1_1_0_0_n_n.rhsIdx i q 1).val = (q ⟨0, by decide⟩).val :=
  dot_S1024x8_S512x8_S1024x512_1_1_0_0_n_n.rhsIdx_val_of_single rfl i q

/-- Entry `(r, j)` of `x · gᵀ` accumulated from zero: the inner product of row `r` of `x` and row `j` of `g`. -/
theorem gram_apply (v0 : FVec Ideal S1024x8 .f32) (v1 : FVec Ideal S512x8 .f32) (r : Fin 1024) (j : Fin 512) :
    matmul dot_S1024x8_S512x8_S1024x512_1_1_0_0_n_n none v0 v1 (constant S1024x512 .f32 0x00000000#32) (ix2 r j)
      = inner8 (fun d => v0 (ix2 r d)) (fun d => v1 (ix2 j d)) := by
  refine (Ideal.matmul_constant_zero_apply dot_S1024x8_S512x8_S1024x512_1_1_0_0_n_n none v0 v1 (ix2 r j)).trans ?_
  unfold inner8
  rw [← Equiv.sum_comp (ValueIdx.contrEquiv1 dot_S1024x8_S512x8_S1024x512_1_1_0_0_n_n 8 rfl rfl).symm]
  refine Finset.sum_congr rfl fun k _ => ?_
  have hk := ValueIdx.contrEquiv1_symm_val dot_S1024x8_S512x8_S1024x512_1_1_0_0_n_n 8 rfl rfl k
  have el : dot_S1024x8_S512x8_S1024x512_1_1_0_0_n_n.lhsIdx (ix2 r j) ((ValueIdx.contrEquiv1 dot_S1024x8_S512x8_S1024x512_1_1_0_0_n_n 8 rfl rfl).symm k) = ix2 r k := funext fun a => Fin.ext (by
    match a with
    | ⟨0, _⟩ => exact gramL0 _ _
    | ⟨1, _⟩ => exact (gramL1 _ _).trans hk)
  have er : dot_S1024x8_S512x8_S1024x512_1_1_0_0_n_n.rhsIdx (ix2 r j) ((ValueIdx.contrEquiv1 dot_S1024x8_S512x8_S1024x512_1_1_0_0_n_n 8 rfl rfl).symm k) = ix2 j k := funext fun a => Fin.ext (by
    match a with
    | ⟨0, _⟩ => exact gramR0 _ _
    | ⟨1, _⟩ => exact (gramR1 _ _).trans hk)
  rw [el, er]

/-! ### The product of the kernel block with the right factor's rows, into zero -/

theorem prodL0 (i : S1024x4096.Idx) (q : dot_S1024x512_S512x4096_S1024x4096_1_0_0_1_n_n.contr.Idx) : (dot_S1024x512_S512x4096_S1024x4096_1_0_0_1_n_n.lhsIdx i q 0).val = (i 0).val := by
  unfold DotDims.lhsIdx
  rw [dif_neg (show ¬(0 : Fin S1024x512.rank) ∈ dot_S1024x512_S512x4096_S1024x4096_1_0_0_1_n_n.lhsBatch by decide), dif_pos (show (0 : Fin S1024x512.rank) ∈ dot_S1024x512_S512x4096_S1024x4096_1_0_0_1_n_n.lhsNonContracting by decide)]
  rfl
theorem prodL1 (i : S1024x4096.Idx) (q : dot_S1024x512_S512x4096_S1024x4096_1_0_0_1_n_n.contr.Idx) : (dot_S1024x512_S512x4096_S1024x4096_1_0_0_1_n_n.lhsIdx i q 1).val = (q ⟨0, by decide⟩).val :=
  dot_S1024x512_S512x4096_S1024x4096_1_0_0_1_n_n.lhsIdx_val_of_single rfl i q
theorem prodR0 (i : S1024x4096.Idx) (q : dot_S1024x512_S512x4096_S1024x4096_1_0_0_1_n_n.contr.Idx) : (dot_S1024x512_S512x4096_S1024x4096_1_0_0_1_n_n.rhsIdx i q 0).val = (q ⟨0, by decide⟩).val :=
  dot_S1024x512_S512x4096_S1024x4096_1_0_0_1_n_n.rhsIdx_val_of_single rfl i q
theorem prodR1 (i : S1024x4096.Idx) (q : dot_S1024x512_S512x4096_S1024x4096_1_0_0_1_n_n.contr.Idx) : (dot_S1024x512_S512x4096_S1024x4096_1_0_0_1_n_n.rhsIdx i q 1).val = (i 1).val := by
  unfold DotDims.rhsIdx
  rw [dif_neg (show ¬(1 : Fin S512x4096.rank) ∈ dot_S1024x512_S512x4096_S1024x4096_1_0_0_1_n_n.rhsBatch by decide), dif_pos (show (1 : Fin S512x4096.rank) ∈ dot_S1024x512_S512x4096_S1024x4096_1_0_0_1_n_n.rhsNonContracting by decide)]
  rfl

/-- Entry `(r, c)` of `a · w` accumulated from zero: the sum over the 512 shared indices. -/
theorem prod_apply (a : FVec Ideal S1024x512 .bf16) (w : FVec Ideal S512x4096 .bf16) (r : Fin 1024) (c : Fin 4096) :
    matmul dot_S1024x512_S512x4096_S1024x4096_1_0_0_1_n_n none a w (constant S1024x4096 .f32 0x00000000#32) (ix2 r c)
      = ∑ j : Fin 512, a (ix2 r j) * w (ix2 j c) := by
  refine (Ideal.matmul_constant_zero_apply dot_S1024x512_S512x4096_S1024x4096_1_0_0_1_n_n none a w (ix2 r c)).trans ?_
  rw [← Equiv.sum_comp (ValueIdx.contrEquiv1 dot_S1024x512_S512x4096_S1024x4096_1_0_0_1_n_n 512 rfl rfl).symm]
  refine Finset.sum_congr rfl fun k _ => ?_
  have hk := ValueIdx.contrEquiv1_symm_val dot_S1024x512_S512x4096_S1024x4096_1_0_0_1_n_n 512 rfl rfl k
  have el : dot_S1024x512_S512x4096_S1024x4096_1_0_0_1_n_n.lhsIdx (ix2 r c) ((ValueIdx.contrEquiv1 dot_S1024x512_S512x4096_S1024x4096_1_0_0_1_n_n 512 rfl rfl).symm k) = ix2 r k := funext fun a => Fin.ext (by
    match a with
    | ⟨0, _⟩ => exact prodL0 _ _
    | ⟨1, _⟩ => exact (prodL1 _ _).trans hk)
  have er : dot_S1024x512_S512x4096_S1024x4096_1_0_0_1_n_n.rhsIdx (ix2 r c) ((ValueIdx.contrEquiv1 dot_S1024x512_S512x4096_S1024x4096_1_0_0_1_n_n 512 rfl rfl).symm k) = ix2 k c := funext fun a => Fin.ext (by
    match a with
    | ⟨0, _⟩ => exact (prodR0 _ _).trans hk
    | ⟨1, _⟩ => exact prodR1 _ _)
  rw [el, er]

/-! ### The block's contribution -/

/-- The product block the body computes from its three input blocks, at `(r, c)`. -/
theorem contribution_apply (x : Vec Ideal S1024x8 .f32) (g : Vec Ideal S512x8 .f32) (w : Vec Ideal S512x4096 .bf16)
    (r : Fin 1024) (c : Fin 4096) :
    k0_pay1 (F := Ideal) x g w (ix2 r c)
      = ∑ j : Fin 512, rbf (fun d => x (ix2 r d)) (fun d => g (ix2 j d)) * w (ix2 j c) := by
  unfold k0_pay1
  refine (prod_apply _ _ r c).trans (Finset.sum_congr rfl fun j _ => ?_)
  refine congrArg₂ (· * ·) ?_ (congrFun (shapeCast_self w _) (ix2 j c))
  unfold rbf
  refine congrArg Ideal.exp (congrArg (_ * ·) (congrArg (max · _) (congrArg₂ (· + ·) (congrArg₂ (· - ·) ?_ (congrArg (_ * ·) ?_)) ?_)))
  · exact (spreadRows_apply _ _ _ r j).trans (laneSumSq_apply x _ _ _ r)
  · exact gram_apply x g r j
  · exact (spreadCols_apply _ _ _ r j).trans (laneSumSq_apply g _ _ _ j)

/-- The accumulating store's payload: the running block plus the contribution, entry by entry. -/
theorem accumulated_apply (x : Vec Ideal S1024x8 .f32) (g : Vec Ideal S512x8 .f32) (w : Vec Ideal S512x4096 .bf16)
    (acc : Vec Ideal S1024x4096 .f32) (i : S1024x4096.Idx) :
    k0_pay2 (F := Ideal) x g w acc i = acc i + k0_pay1 (F := Ideal) x g w i := by
  unfold k0_pay2
  exact congrArg (· + _) (congrFun (shapeCast_self acc _) i)

end Cert.KernelIdeal.Entry

end
-- ==== Proof.KernelIdealValue.Whole.lean ====
/-
  The result array of the fused call at the ideal instance: entry `(r, c)` is the whole sum over the 4096 grid
  rows of `rbf (input row r) (grid row j) · factor j c`.

  Point `t` of the grid works on input rows `1024·(t/8) ..`, grid rows `512·(t%8) ..` and the same rows of the right
  factor (which the host has only changed the float format of: the identity here). By induction on the point,
  after point `t` the output's staging buffer holds, at `(r, c)`, the partial sum over the first `512·(t%8 + 1)`
  grid rows for input row `1024·(t/8) + r`: the first contraction block of a row block stores its stretch, each
  later one adds its stretch to what the point before left. The buffer is written back after the eighth stretch,
  when the partial sum is the whole sum; the four write-backs tile the array.
-/
import proofs.«122184_g6064493822376_cont_9to1c4b_109_4_alg».proof.Proof.KernelIdealValue.Stored
import proofs.«122184_g6064493822376_cont_9to1c4b_109_4_alg».proof.Proof.KernelIdealValue.Entry
import Idealize.ShloMosaic.Lib.StableHlo.Run

set_option maxRecDepth 16384

noncomputable section

namespace Cert.KernelIdeal.Whole

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body Cert.KernelIdeal.Entry Cert.Rbf
open Cert.KernelIdeal.Facts₀

variable (m : (ℓ : Loc nD τ sig) → Buf (Elt Ideal) ℓ) (ρ : Dev nD → PrngReg)

theorem N32 : cfg0.N = 32 := N_0

/-- Where each window's block sits at point `t`: the input and output blocks at row block `t / 8`, the grid rows and
    the right factor's rows at contraction block `t % 8`; decided over the 32 points. -/
theorem blockIndex : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val % 8 ∧ win0_2.index t (1 : Fin 2) = 0
    ∧ win0_3.index t (0 : Fin 2) = t.val / 8 ∧ win0_3.index t (1 : Fin 2) = 0 :=
  (by decide +kernel : ∀ t : Fin grid0.N, _)

/-- The three argument arrays by row and column. -/
def inputRows (c : Dev nD) : Fin 4096 → Fin 8 → EReal := fun r d => m ((c : Thread nD τ).loc main_arg0) (ix2 r d)
def gridRows (c : Dev nD) : Fin 4096 → Fin 8 → EReal := fun r d => m ((c : Thread nD τ).loc main_arg1) (ix2 r d)
def factor (c : Dev nD) : Fin 4096 → Fin 4096 → EReal := fun j k => m ((c : Thread nD τ).loc main_arg2) (ix2 j k)

/-- The result array: every entry the whole sum. -/
def result (c : Dev nD) : Buf (Elt Ideal) ((c : Thread nD τ).loc main_v1) := fun i =>
  entry (inputRows m c) (gridRows m c) (factor m c) (⟨(i 0).val, (i 0).isLt⟩ : Fin 4096) (⟨(i 1).val, (i 1).isLt⟩ : Fin 4096)

/-- Row `r` of point `t`'s input (and output) block is row `1024·(t/8) + r` of the array. -/
def rowAt (t : Fin cfg0.N) (r : Fin 1024) : Fin 4096 :=
  ⟨t.val / 8 * 1024 + r.val, by have := lt_of_lt_of_eq t.isLt N32; have := r.isLt; omega⟩

/-- Row `j` of point `t`'s grid block is grid row `512·(t%8) + j`. -/
def gridRowAt (t : Fin cfg0.N) (j : Fin 512) : Fin 4096 :=
  ⟨t.val % 8 * 512 + j.val, by have := j.isLt; omega⟩

/-! ## The blocks the body reads -/

theorem inputBlock_apply (c : Dev nD) (t : Fin cfg0.N) (r : Fin 1024) (d : Fin 8) :
    (iblk m c 0 t : Vec Ideal S1024x8 .f32) (ix2 r d) = inputRows m c (rowAt t r) d := by
  obtain ⟨e0, e1, -⟩ := blockIndex t
  unfold iblk inputRows
  rw [View.read_apply]
  show V m c main_arg0 _ = _
  rw [V_main_arg0]
  refine congrArg _ (funext fun a => Fin.ext ?_)
  match a with
  | ⟨0, _⟩ => show win0_0.index t (0 : Fin 2) * 1024 + 1 * r.val = t.val / 8 * 1024 + r.val; omega
  | ⟨1, _⟩ => show win0_0.index t (1 : Fin 2) * 8 + 1 * d.val = d.val; omega

theorem gridBlock_apply (c : Dev nD) (t : Fin cfg0.N) (j : Fin 512) (d : Fin 8) :
    (iblk m c 1 t : Vec Ideal S512x8 .f32) (ix2 j d) = gridRows m c (gridRowAt t j) d := by
  obtain ⟨-, -, e2, e3, -⟩ := blockIndex t
  unfold iblk gridRows
  rw [View.read_apply]
  show V m c main_arg1 _ = _
  rw [V_main_arg1]
  refine congrArg _ (funext fun a => Fin.ext ?_)
  match a with
  | ⟨0, _⟩ => show win0_1.index t (0 : Fin 2) * 512 + 1 * j.val = t.val % 8 * 512 + j.val; omega
  | ⟨1, _⟩ => show win0_1.index t (1 : Fin 2) * 8 + 1 * d.val = d.val; omega

/-- The array the third window stages is the right factor in another float format: the same extended reals. -/
theorem converted (c : Dev nD) (i : S4096x4096.Idx) : (V m c main_v0 i : EReal) = m ((c : Thread nD τ).loc main_arg2) i := by
  have e : (V m c main_v0 : S4096x4096.Idx → EReal) = fun i => m ((c : Thread nD τ).loc main_arg2) i := by
    dsimp only [V, hostOps0]; after_results; rfl
  exact congrFun e i

theorem factorBlock_apply (c : Dev nD) (t : Fin cfg0.N) (j : Fin 512) (k : Fin 4096) :
    ((iblk m c 2 t : Vec Ideal S512x4096 .bf16) (ix2 j k) : EReal) = factor m c (gridRowAt t j) k := by
  obtain ⟨-, -, -, -, e4, e5, -⟩ := blockIndex t
  unfold iblk factor
  rw [View.read_apply]
  show V m c main_v0 _ = _
  refine (converted m c _).trans ?_
  refine congrArg _ (funext fun a => Fin.ext ?_)
  match a with
  | ⟨0, _⟩ => show win0_2.index t (0 : Fin 2) * 512 + 1 * j.val = t.val % 8 * 512 + j.val; omega
  | ⟨1, _⟩ => show win0_2.index t (1 : Fin 2) * 4096 + 1 * k.val = k.val; omega

/-- The contribution of point `t`'s blocks at `(r, k)`: the stretch of summands of grid rows `512·(t%8) ..`. -/
theorem stretch_apply (c : Dev nD) (t : Fin cfg0.N) (r : Fin 1024) (k : Fin 4096) :
    k0_pay1 (F := Ideal) (iblk m c 0 t) (iblk m c 1 t) (iblk m c 2 t) (ix2 r k)
      = ∑ j : Fin 512, term (inputRows m c) (gridRows m c) (factor m c) (rowAt t r) k (t.val % 8 * 512 + j.val) := by
  refine (contribution_apply _ _ _ r k).trans (Finset.sum_congr rfl fun j _ => ?_)
  have hj : t.val % 8 * 512 + j.val < 4096 := (gridRowAt t j).isLt
  rw [term_lt _ _ _ _ _ _ hj]
  have ex : (fun d => (iblk m c 0 t : Vec Ideal S1024x8 .f32) (ix2 r d)) = inputRows m c (rowAt t r) :=
    funext fun d => inputBlock_apply m c t r d
  have eg : (fun d => (iblk m c 1 t : Vec Ideal S512x8 .f32) (ix2 j d)) = gridRows m c (gridRowAt t j) :=
    funext fun d => gridBlock_apply m c t j d
  exact congrArg₂ (· * ·) (congrArg₂ rbf ex eg) (factorBlock_apply m c t j k)

/-! ## The running block -/

/-- After a point that opens a row block: the first stretch. -/
theorem afterFirst (c : Dev nD) (t : Fin cfg0.N) (h0 : t.val % 8 = 0) (r : Fin 1024) (k : Fin 4096) :
    outsAt m c t.val t.isLt (ix2 r k)
      = partialSum (inputRows m c) (gridRows m c) (factor m c) (rowAt t r) k ((t.val % 8 + 1) * 512) := by
  rw [outsAt_first m c t h0, outFirst_eq]
  refine (stretch_apply m c t r k).trans ?_
  rw [h0, partialSum_stretch, show (0 : ℕ) * 512 = 0 from rfl, partialSum_zero, zero_add]

/-- After a point inside a row block: one more stretch on what the point before left. -/
theorem afterLater (c : Dev nD) (t : Fin cfg0.N) (h0 : ¬t.val % 8 = 0) (r : Fin 1024) (k : Fin 4096)
    (ih : outsAt m c (t.val - 1) (Nat.lt_of_le_of_lt (Nat.sub_le _ _) t.isLt) (ix2 r k)
      = partialSum (inputRows m c) (gridRows m c) (factor m c) (rowAt ⟨t.val - 1, Nat.lt_of_le_of_lt (Nat.sub_le _ _) t.isLt⟩ r) k
          (((t.val - 1) % 8 + 1) * 512)) :
    outsAt m c t.val t.isLt (ix2 r k)
      = partialSum (inputRows m c) (gridRows m c) (factor m c) (rowAt t r) k ((t.val % 8 + 1) * 512) := by
  rw [outsAt_later m c t h0, outLater_eq]
  refine (accumulated_apply _ _ _ _ (ix2 r k)).trans ?_
  rw [ih, stretch_apply m c t r k]
  have e1 : rowAt ⟨t.val - 1, Nat.lt_of_le_of_lt (Nat.sub_le _ _) t.isLt⟩ r = rowAt t r :=
    Fin.ext (by show (t.val - 1) / 8 * 1024 + r.val = t.val / 8 * 1024 + r.val; omega)
  have e2 : (t.val - 1) % 8 + 1 = t.val % 8 := by omega
  rw [e1, e2, partialSum_stretch]

/-- After every point the output's staging buffer holds the partial sums up to that point's stretch. -/
theorem outsAt_apply (c : Dev nD) : ∀ (n : ℕ) (hn : n < cfg0.N) (r : Fin 1024) (k : Fin 4096),
    outsAt m c n hn (ix2 r k)
      = partialSum (inputRows m c) (gridRows m c) (factor m c) (rowAt ⟨n, hn⟩ r) k ((n % 8 + 1) * 512)
  | 0, hn, r, k => afterFirst m c ⟨0, hn⟩ rfl r k
  | n + 1, hn, r, k => by
    by_cases h0 : (n + 1) % 8 = 0
    · exact afterFirst m c ⟨n + 1, hn⟩ h0 r k
    · exact afterLater m c ⟨n + 1, hn⟩ h0 r k (outsAt_apply c n (Nat.lt_of_succ_lt hn) r k)

/-! ## The array after the run -/

/-- A write-back happens after the eighth stretch: the block written is the block of whole sums. -/
theorem flushed_eq (c : Dev nD) (t : Fin cfg0.N) (hf : (cfg0.win 3).flush t = true) :
    (dats m 0 c).flushed 3 t = ((cfg0.win 3).blk t).view.read (Elt Ideal) (result m c) := by
  have h7 : t.val % 8 = 7 := (flush0_3 t).mp hf
  obtain ⟨-, -, -, -, -, -, e6, e7⟩ := blockIndex t
  show (cfg0.win 3).cut (grid0.coords t) ((dats m 0 c).after 3 t) = _
  rw [after0_3]
  funext y
  obtain ⟨r, k, rfl⟩ : ∃ (r : Fin 1024) (k : Fin 4096), y = ix2 r k := ⟨y 0, y 1, eq_ix2 y⟩
  show outsAt m c t.val t.isLt (ix2 r k) = result m c (((cfg0.win 3).blk t).view.emb (ix2 r k))
  rw [outsAt_apply m c t.val t.isLt r k, h7, show (7 + 1) * 512 = 4096 from rfl, partialSum_full]
  unfold result
  refine congrArg₂ (entry _ _ _) (Fin.ext ?_) (Fin.ext ?_)
  · show t.val / 8 * 1024 + r.val = win0_3.index t (0 : Fin 2) * 1024 + 1 * r.val; omega
  · show k.val = win0_3.index t (1 : Fin 2) * 4096 + 1 * k.val; omega

/-- Every entry of the array lies in the block some write-back writes: row block `i₀ / 1024`, written back at its
    eighth point. -/
theorem covered (c : Dev nD) (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hb : (i 0).val / 1024 * 8 + 7 < cfg0.N := by rw [N32]; omega
  refine ⟨⟨(i 0).val / 1024 * 8 + 7, hb⟩, (flush0_3 _).mpr (by show ((i 0).val / 1024 * 8 + 7) % 8 = 7; omega), ?_⟩
  obtain ⟨-, -, -, -, -, -, e6, e7⟩ := blockIndex ⟨(i 0).val / 1024 * 8 + 7, hb⟩
  have e6' : win0_3.index ⟨(i 0).val / 1024 * 8 + 7, hb⟩ (0 : Fin 2) = (i 0).val / 1024 := by
    rw [e6]; show ((i 0).val / 1024 * 8 + 7) / 8 = (i 0).val / 1024; omega
  show i ∈ ((View.whole main_v1).slice (win0_3.rect ⟨(i 0).val / 1024 * 8 + 7, hb⟩)).set
  rw [View.set_slice_whole, Rect.mem_set_unit]
  intro a
  match a with
  | ⟨0, _⟩ =>
    show win0_3.index ⟨(i 0).val / 1024 * 8 + 7, hb⟩ (0 : Fin 2) * 1024 ≤ (i 0).val
      ∧ (i 0).val < win0_3.index ⟨(i 0).val / 1024 * 8 + 7, hb⟩ (0 : Fin 2) * 1024 + 1024
    omega
  | ⟨1, _⟩ =>
    show win0_3.index ⟨(i 0).val / 1024 * 8 + 7, hb⟩ (1 : Fin 2) * 4096 ≤ (i 1).val
      ∧ (i 1).val < win0_3.index ⟨(i 0).val / 1024 * 8 + 7, hb⟩ (1 : Fin 2) * 4096 + 4096
    omega

/-- So the result array ends holding the whole sums. -/
theorem final (c : Dev nD) : (dats m 0 c).arrAt 3 cfg0.N = result m c :=
  (dats m 0 c).arrAt_eq_of_cover 3 (result m c) (flushed_eq m c) (covered c)

/-- The run, read: the result array at the whole sums, the three arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.KernelIdeal.Whole

end
-- ==== Proof.ReferenceValue.lean ====
/-
  The reference at the ideal instance, entry by entry: its last operation is one matrix product whose left
  factor has, at `(r, j)`, the radial kernel entry of input row `r` and grid row `j` — the squared lengths are
  host sums from the zero word, the cross term a host product with the transposed grid, and the division by the
  float `1.0` changes nothing — so entry `(r, c)` of the result is the whole sum over the 4096 grid rows.
-/
import proofs.«122184_g6064493822376_cont_9to1c4b_109_4_alg».proof.Proof.Gen.ReferenceIdeal.Read
import proofs.«122184_g6064493822376_cont_9to1c4b_109_4_alg».proof.Proof.RbfSum

noncomputable section

namespace Cert.ReferenceIdeal.RefValue

open Cert.ReferenceIdeal Cert.ReferenceIdeal.Gen Cert.ReferenceIdeal.Read Idealize.ShloMosaic Idealize.ShloMosaic.ValueIdx Cert.Rbf

/-- The float word `1.0` denotes the real one. -/
theorem ofBits_one : Ideal.ofBits .f32 0x3F800000#32 = 1 := by
  simp [Ideal.ofBits, Ideal.ieee, -EReal.coe_mul]; norm_num

/-- Dividing an extended real by the float `1.0` leaves it as it is. -/
theorem div_one_word (x : EReal) : Ideal.div x (Ideal.ofBits .f32 0x3F800000#32) = x := by
  rw [ofBits_one, ← EReal.coe_one, Ideal.div_coe one_ne_zero]
  simp

/-- Entry `(r, j)` of the reference's kernel matrix. -/
theorem kernelMatrix_apply (x0 x1 : (⟨S4096x8, .f32⟩ : BufTy).Contents (Elt Ideal)) (i : S4096x4096.Idx) :
    val_main_v20 (F := Ideal) x0 x1 i
      = rbf (fun d => x0 (ix2 (⟨(i 0).val, (i 0).isLt⟩ : Fin 4096) d)) (fun d => x1 (ix2 (⟨(i 1).val, (i 1).isLt⟩ : Fin 4096) d)) := by
  rw [val_main_v20_apply, val_main_v19_apply, val_main_v18_apply, val_main_cst_4_apply]
  show Ideal.exp (Ideal.div (val_main_v17 (F := Ideal) x0 x1 i) (Ideal.ofBits .f32 0x3F800000#32)) = _
  rw [div_one_word, val_main_v17_apply, val_main_v16_apply, val_main_cst_3_apply, val_main_v15_apply, val_main_v14_apply,
    val_main_cst_2_apply, val_main_v13_apply, val_main_v8_apply, val_main_v6_apply, val_main_v5_apply, val_main_cst_0_apply]
  unfold rbf
  refine congrArg Ideal.exp (congrArg (_ * ·) (congrArg (max · _) (congrArg₂ (· + ·) (congrArg₂ (· - ·) ?_ (congrArg (_ * ·) ?_)) ?_)))
  · rw [val_main_v7_apply, val_main_v2_apply, val_main_v1_apply]
    show Ideal.ofBits .f32 0x00000000#32 + _ = _
    rw [Ideal.ofBits_zero_f32, zero_add]
    unfold sqLen
    refine Finset.sum_congr rfl fun k _ => ?_
    rw [val_main_v0_apply]
    have e : idx_main_v1 (idx_main_v2 (idx_main_v7 i)) k = ix2 (⟨(i 0).val, (i 0).isLt⟩ : Fin 4096) k :=
      funext fun a => Fin.ext (by match a with | ⟨0, _⟩ => rfl | ⟨1, _⟩ => rfl)
    rw [e]; rfl
  · rw [val_main_v4_apply]
    unfold inner8
    refine Finset.sum_congr rfl fun k _ => ?_
    rw [val_main_v3_apply]
    have el : lidx_main_v4 i k = ix2 (⟨(i 0).val, (i 0).isLt⟩ : Fin 4096) k :=
      funext fun a => Fin.ext (by match a with | ⟨0, _⟩ => rfl | ⟨1, _⟩ => rfl)
    have er : idx_main_v3 (ridx_main_v4 i k) = ix2 (⟨(i 1).val, (i 1).isLt⟩ : Fin 4096) k :=
      funext fun a => Fin.ext (by match a with | ⟨0, _⟩ => rfl | ⟨1, _⟩ => rfl)
    rw [el, er]
  · rw [val_main_v12_apply, val_main_v11_apply, val_main_v10_apply]
    show Ideal.ofBits .f32 0x00000000#32 + _ = _
    rw [Ideal.ofBits_zero_f32, zero_add]
    unfold sqLen
    refine Finset.sum_congr rfl fun k _ => ?_
    rw [val_main_v9_apply]
    have e : idx_main_v10 (idx_main_v11 (idx_main_v12 i)) k = ix2 (⟨(i 1).val, (i 1).isLt⟩ : Fin 4096) k :=
      funext fun a => Fin.ext (by match a with | ⟨0, _⟩ => rfl | ⟨1, _⟩ => rfl)
    rw [e]; rfl

/-- The reference's result at an entry: the whole sum over the grid rows. -/
theorem result_apply (x0 x1 : (⟨S4096x8, .f32⟩ : BufTy).Contents (Elt Ideal)) (x2 : (⟨S4096x4096, .f32⟩ : BufTy).Contents (Elt Ideal))
    (i : S4096x4096.Idx) :
    val_main_v21 (F := Ideal) x0 x1 x2 i
      = entry (fun r d => x0 (ix2 r d)) (fun r d => x1 (ix2 r d)) (fun j k => x2 (ix2 j k))
          (⟨(i 0).val, (i 0).isLt⟩ : Fin 4096) (⟨(i 1).val, (i 1).isLt⟩ : Fin 4096) := by
  rw [val_main_v21_apply]
  unfold entry
  refine Finset.sum_congr rfl fun k _ => ?_
  refine congrArg₂ (· * ·) ((kernelMatrix_apply x0 x1 (lidx_main_v21 i k)).trans ?_) (congrArg x2 ?_)
  · exact congrArg₂ rbf (funext fun d => congrArg x0 (funext fun a => Fin.ext (by match a with | ⟨0, _⟩ => rfl | ⟨1, _⟩ => rfl)))
      (funext fun d => congrArg x1 (funext fun a => Fin.ext (by match a with | ⟨0, _⟩ => rfl | ⟨1, _⟩ => rfl)))
  · exact funext fun a => Fin.ext (by match a with | ⟨0, _⟩ => rfl | ⟨1, _⟩ => rfl)

end Cert.ReferenceIdeal.RefValue

end
-- ==== Proof.lean ====
/-
  The fused radial-kernel product against its reference.

  Both programs compute, for input rows `X`, grid rows `G` and a right factor `C`, the matrix whose entry
  `(r, c)` is `∑ j, exp(-1/2 · max(|X r|² − 2⟨X r, G j⟩ + |G j|², 0)) · C j c` over the 4096 grid rows. The
  reference takes the sum in one matrix product; the fused call takes it 512 grid rows at a time, eight
  stretches added into a running block per block of 1024 input rows. Over the extended reals a sum may be cut
  into consecutive stretches and added up in order, so the two results agree entry by entry; a change of float
  format and a division by the float `1.0` are identities there. No finiteness of the inputs is used.

  The three frame claims: each program runs to the end, faults nowhere and leaves its arguments unchanged — for
  the fused call at both instances from the per-point triples of its body (one store of the whole output block
  at every point: a reset at the first stretch of a row block, an accumulation at the others), for the reference
  from its run. The idealization rewrote no operation, so `preserves` has nothing to state.
-/
import proofs.«122184_g6064493822376_cont_9to1c4b_109_4_alg».proof.Defs
import proofs.«122184_g6064493822376_cont_9to1c4b_109_4_alg».proof.Proof.Gen.Kernel
import proofs.«122184_g6064493822376_cont_9to1c4b_109_4_alg».proof.Proof.Gen.KernelIdeal
import proofs.«122184_g6064493822376_cont_9to1c4b_109_4_alg».proof.Proof.Gen.ReferenceIdeal
import proofs.«122184_g6064493822376_cont_9to1c4b_109_4_alg».proof.Proof.Gen.Pre_finite_inputs
import proofs.«122184_g6064493822376_cont_9to1c4b_109_4_alg».proof.Proof.KernelBody.Run
import proofs.«122184_g6064493822376_cont_9to1c4b_109_4_alg».proof.Proof.KernelIdealValue.Whole
import proofs.«122184_g6064493822376_cont_9to1c4b_109_4_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Body.frame (F := Bits) m ρ

theorem frame_kernelIdeal : Cert.frame_KernelIdeal := fun m ρ _ => Cert.KernelIdeal.Body.frame (F := Ideal) m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the three arguments both runs end with the result array at the whole sums. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq]
  funext i
  rw [Cert.ReferenceIdeal.RefValue.result_apply, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
